-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x136 : Shape := ⟨2, ![262144, 136]⟩
abbrev S32x8 : Shape := ⟨2, ![32, 8]⟩
abbrev S32 : Shape := ⟨1, ![32]⟩
abbrev S16x32 : Shape := ⟨2, ![16, 32]⟩
abbrev S16 : Shape := ⟨1, ![16]⟩
abbrev S32x24 : Shape := ⟨2, ![32, 24]⟩
abbrev S2x32 : Shape := ⟨2, ![2, 32]⟩
abbrev S2 : Shape := ⟨1, ![2]⟩
abbrev S_ : Shape := ⟨0, ![]⟩

class Facts : Prop where
  bcast_S_S262144x136 : S_.BroadcastsInDim S262144x136 (![] : Fin 0 → Fin S262144x136.rank)
  reducesTo_S262144x136_S_d0_1 : S262144x136.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S32x24 : S_.BroadcastsInDim S32x24 (![] : Fin 0 → Fin S32x24.rank)
  reducesTo_S32x24_S_d0_1 : S32x24.ReducesTo [0, 1] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2x32 .f32) (main_arg8 : FVec F S2 .f32) (main_v33 : IVec S_ 1) : IVec S_ 1 :=
  let main_v34 : FVec F S2x32 .f32 := Host.absf main_arg7
  let main_cst_12 : FVec F S_ .f32 := constant S_ .f32 0x7F800000#32
  let main_v35 : FVec F S2x32 .f32 := broadcastInDim S2x32 ![] bcast_S_S2x32 main_cst_12
  let main_v36 : IVec S2x32 1 := cmpf .olt main_v34 main_v35
  let main_c_13 : IVec S_ 1 := constantI S_ 1 1#1
  let main_v37 : IVec S_ 1 := (fun x v => Host.reduce IntOp.andi x v reducesTo_S2x32_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S16 .f32) (main_arg5 : FVec F S32x24 .f32) (main_arg6 : FVec F S32 .f32) (main_arg7 : FVec F S2x32 .f32) (main_arg8 : FVec F S2 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x24 .f32 := Host.absf main_arg5
  let main_cst_8 : FVec F S_ .f32 := constant S_ .f32 0x7F800000#32
  let main_v25 : FVec F S32x24 .f32 := broadcastInDim S32x24 ![] bcast_S_S32x24 main_cst_8
  let main_v26 : IVec S32x24 1 := cmpf .olt main_v24 main_v25
  let main_c_9 : IVec S_ 1 := constantI S_ 1 1#1
  let main_v27 : IVec S_ 1 := (fun x v => Host.reduce IntOp.andi x v reducesTo_S32x24_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S262144x136 .f32) (main_arg1 : FVec F S32x8 .f32) (main_arg2 : FVec F S32 .f32) (main_arg3 : FVec F S16x32 .f32) (main_arg4 : FVec F S16 .f32) (main_arg5 : FVec F S32x24 .f32) (main_arg6 : FVec F S32 .f32) (main_arg7 : FVec F S2x32 .f32) (main_arg8 : FVec F S2 .f32) : IVec S_ 1 :=
  let main_v0 : FVec F S262144x136 .f32 := Host.absf main_arg0
  let main_cst : FVec F S_ .f32 := constant S_ .f32 0x7F800000#32
  let main_v1 : FVec F S262144x136 .f32 := broadcastInDim S262144x136 ![] bcast_S_S262144x136 main_cst
  let main_v2 : IVec S262144x136 1 := cmpf .olt main_v0 main_v1
  let main_c : IVec S_ 1 := constantI S_ 1 1#1
  let main_v3 : IVec S_ 1 := (fun x v => Host.reduce IntOp.andi x v reducesTo_S262144x136_S_d0_1 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S16x32 .f32 := Host.absf main_arg3
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg4 main_arg5 main_arg6 main_arg7 main_arg8 main_v13 main_v16
-- ==== Kernel.lean ====
abbrev S262144x136 : Shape := ⟨2, ![262144, 136]⟩
abbrev S32x8 : Shape := ⟨2, ![32, 8]⟩
abbrev S32 : Shape := ⟨1, ![32]⟩
abbrev S16x32 : Shape := ⟨2, ![16, 32]⟩
abbrev S16 : Shape := ⟨1, ![16]⟩
abbrev S32x24 : Shape := ⟨2, ![32, 24]⟩
abbrev S2x32 : Shape := ⟨2, ![2, 32]⟩
abbrev S2 : Shape := ⟨1, ![2]⟩
abbrev S8x32 : Shape := ⟨2, ![8, 32]⟩
abbrev S1x32 : Shape := ⟨2, ![1, 32]⟩
abbrev S32x16 : Shape := ⟨2, ![32, 16]⟩
abbrev S1x16 : Shape := ⟨2, ![1, 16]⟩
abbrev S24x32 : Shape := ⟨2, ![24, 32]⟩
abbrev S32x2 : Shape := ⟨2, ![32, 2]⟩
abbrev S1x2 : Shape := ⟨2, ![1, 2]⟩
abbrev S262144x2 : Shape := ⟨2, ![262144, 2]⟩
abbrev S1024x136 : Shape := ⟨2, ![1024, 136]⟩
abbrev S1024x2 : Shape := ⟨2, ![1024, 2]⟩
abbrev S1024x8 : Shape := ⟨2, ![1024, 8]⟩
abbrev S1024x128 : Shape := ⟨2, ![1024, 128]⟩
abbrev S1024x8x16 : Shape := ⟨3, ![1024, 8, 16]⟩
abbrev S1024x16x8 : Shape := ⟨3, ![1024, 16, 8]⟩
abbrev S16384x8 : Shape := ⟨2, ![16384, 8]⟩
abbrev S16384x32 : Shape := ⟨2, ![16384, 32]⟩
abbrev S16384x16 : Shape := ⟨2, ![16384, 16]⟩
abbrev S1024x16x16 : Shape := ⟨3, ![1024, 16, 16]⟩
abbrev S1024x16 : Shape := ⟨2, ![1024, 16]⟩
abbrev S1024x24 : Shape := ⟨2, ![1024, 24]⟩
abbrev S1024x32 : Shape := ⟨2, ![1024, 32]⟩

abbrev nBuf : Space → Nat
  | .hbm => 18
  | .vmem => 12
  | .smem => 0
  | _ => 0

abbrev bufTy : (tb : Table) → Fin (tcTables nBuf tb) → BufTy
  | .hbm, ⟨0, _⟩ => ⟨S262144x136, .f32⟩
  | .hbm, ⟨1, _⟩ => ⟨S32x8, .f32⟩
  | .hbm, ⟨2, _⟩ => ⟨S32, .f32⟩
  | .hbm, ⟨3, _⟩ => ⟨S16x32, .f32⟩
  | .hbm, ⟨4, _⟩ => ⟨S16, .f32⟩
  | .hbm, ⟨5, _⟩ => ⟨S32x24, .f32⟩
  | .hbm, ⟨6, _⟩ => ⟨S32, .f32⟩
  | .hbm, ⟨7, _⟩ => ⟨S2x32, .f32⟩
  | .hbm, ⟨8, _⟩ => ⟨S2, .f32⟩
  | .hbm, ⟨9, _⟩ => ⟨S8x32, .f32⟩
  | .hbm, ⟨10, _⟩ => ⟨S1x32, .f32⟩
  | .hbm, ⟨11, _⟩ => ⟨S32x16, .f32⟩
  | .hbm, ⟨12, _⟩ => ⟨S1x16, .f32⟩
  | .hbm, ⟨13, _⟩ => ⟨S24x32, .f32⟩
  | .hbm, ⟨14, _⟩ => ⟨S1x32, .f32⟩
  | .hbm, ⟨15, _⟩ => ⟨S32x2, .f32⟩
  | .hbm, ⟨16, _⟩ => ⟨S1x2, .f32⟩
  | .hbm, ⟨17, _⟩ => ⟨S262144x2, .f32⟩
  | .local _ .vmem, ⟨0, _⟩ => ⟨S1024x136, .f32⟩
  | .local _ .vmem, ⟨1, _⟩ => ⟨S1024x136, .f32⟩
  | .local _ .vmem, ⟨2, _⟩ => ⟨S8x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S24x32, .f32⟩
  | .local _ .vmem, ⟨7, _⟩ => ⟨S1x32, .f32⟩
  | .local _ .vmem, ⟨8, _⟩ => ⟨S32x2, .f32⟩
  | .local _ .vmem, ⟨9, _⟩ => ⟨S1x2, .f32⟩
  | .local _ .vmem, ⟨10, _⟩ => ⟨S1024x2, .f32⟩
  | .local _ .vmem, ⟨11, _⟩ => ⟨S1024x2, .f32⟩
  | _, _ => ⟨S262144x136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S32x8_S8x32_1_0 : S32x8.Transposes [1, 0] S8x32
  shapeCasts_S32_S1x32 : S32.ShapeCasts S1x32
  transposes_S16x32_S32x16_1_0 : S16x32.Transposes [1, 0] S32x16
  shapeCasts_S16_S1x16 : S16.ShapeCasts S1x16
  transposes_S32x24_S24x32_1_0 : S32x24.Transposes [1, 0] S24x32
  transposes_S2x32_S32x2_1_0 : S2x32.Transposes [1, 0] S32x2
  shapeCasts_S2_S1x2 : S2.ShapeCasts S1x2
  inb_S1024x136_S1024x136_0_0 : ∀ a, (![0, 0] : Fin 2 → Nat) a + S1024x136.size a ≤ S1024x136.size a
  h_S1024x136 : 0 < S1024x136.numel
  slices_S1024x136_o0_0_S1024x8 : S1024x136.Slices ![0, 0] S1024x8
  slices_S1024x136_o0_8_S1024x128 : S1024x136.Slices ![0, 8] S1024x128
  shapeCasts_S1024x128_S1024x8x16 : S1024x128.ShapeCasts S1024x8x16
  transposes_S1024x8x16_p0_2_1_S1024x16x8 : S1024x8x16.Transposes [0, 2, 1] S1024x16x8
  shapeCasts_S1024x16x8_S16384x8 : S1024x16x8.ShapeCasts S16384x8
  inb_S8x32_S8x32_0_0 : ∀ a, (![0, 0] : Fin 2 → Nat) a + S8x32.size a ≤ S8x32.size a
  h_S8x32 : 0 < S8x32.numel
  shapeCasts_S8x32_S8x32 : S8x32.ShapeCasts S8x32
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16384x32 : S1x32.Broadcasts S16384x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S16384x16 : S1x16.Broadcasts S16384x16
  shapeCasts_S16384x16_S1024x16x16 : S16384x16.ShapeCasts S1024x16x16
  reduces_S1024x16x16_S1024x16 : S1024x16x16.Reduces [1] S1024x16
  concatenates_S1024x8_S1024x16_S1024x24_d1 : Shape.Concatenates [S1024x8, S1024x16] S1024x24 1
  inb_S24x32_S24x32_0_0 : ∀ a, (![0, 0] : Fin 2 → Nat) a + S24x32.size a ≤ S24x32.size a
  h_S24x32 : 0 < S24x32.numel
  shapeCasts_S24x32_S24x32 : S24x32.ShapeCasts S24x32
  broadcasts_S1x32_S1024x32 : S1x32.Broadcasts S1024x32
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  dot_S16384x8_S8x32_S16384x32_1_0_0_1_n_n_wf : DotDims.WF S16384x8 S8x32 S16384x32 [1] [0] [0] [1] [] []
  dot_S16384x32_S32x16_S16384x16_1_0_0_1_n_n_wf : DotDims.WF S16384x32 S32x16 S16384x16 [1] [0] [0] [1] [] []
  dot_S1024x24_S24x32_S1024x32_1_0_0_1_n_n_wf : DotDims.WF S1024x24 S24x32 S1024x32 [1] [0] [0] [1] [] []
  dot_S1024x32_S32x2_S1024x2_1_0_0_1_n_n_wf : DotDims.WF S1024x32 S32x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x136.size a ≤ S262144x136.size a
  hwx0_0 : ∀ i : grid0.Coords, EltTy.bits .f32 = 32 ∨ (Rect.block (s := S262144x136) S1024x136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S8x32.size a
  hwx0_1 : ∀ i : grid0.Coords, EltTy.bits .f32 = 32 ∨ (Rect.block (s := S8x32) S8x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x32.size a ≤ S24x32.size a
  hwx0_5 : ∀ i : grid0.Coords, EltTy.bits .f32 = 32 ∨ (Rect.block (s := S24x32) S24x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x2.size a ≤ S32x2.size a
  hwx0_7 : ∀ i : grid0.Coords, EltTy.bits .f32 = 32 ∨ (Rect.block (s := S32x2) S32x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x2.size a ≤ S262144x2.size a
  hwx0_9 : ∀ i : grid0.Coords, EltTy.bits .f32 = 32 ∨ (Rect.block (s := S262144x2) S1024x2.size (cc0_transform_9 i) (hinb0_9 i)).WholeWords (EltTy.packing .f32)

variable [Facts₀]

def dot_S16384x8_S8x32_S16384x32_1_0_0_1_n_n : DotDims S16384x8 S8x32 S16384x32 where
  lhsContracting := [1]
  rhsContracting := [0]
  lhsNonContracting := [0]
  rhsNonContracting := [1]
  lhsBatch := []
  rhsBatch := []
  wf := dot_S16384x8_S8x32_S16384x32_1_0_0_1_n_n_wf
def dot_S16384x32_S32x16_S16384x16_1_0_0_1_n_n : DotDims S16384x32 S32x16 S16384x16 where
  lhsContracting := [1]
  rhsContracting := [0]
  lhsNonContracting := [0]
  rhsNonContracting := [1]
  lhsBatch := []
  rhsBatch := []
  wf := dot_S16384x32_S32x16_S16384x16_1_0_0_1_n_n_wf
def dot_S1024x24_S24x32_S1024x32_1_0_0_1_n_n : DotDims S1024x24 S24x32 S1024x32 where
  lhsContracting := [1]
  rhsContracting := [0]
  lhsNonContracting := [0]
  rhsNonContracting := [1]
  lhsBatch := []
  rhsBatch := []
  wf := dot_S1024x24_S24x32_S1024x32_1_0_0_1_n_n_wf
def dot_S1024x32_S32x2_S1024x2_1_0_0_1_n_n : DotDims S1024x32 S32x2 S1024x2 where
  lhsContracting := [1]
  rhsContracting := [0]
  lhsNonContracting := [0]
  rhsNonContracting := [1]
  lhsBatch := []
  rhsBatch := []
  wf := dot_S1024x32_S32x2_S1024x2_1_0_0_1_n_n_wf

abbrev win0_0 : Pipeline.Window sig grid0 :=
  Pipeline.Window.ofSpec (Memref.whole main_arg0) S1024x136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S24x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S32x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1024x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x136 : Shape := ⟨2, ![262144, 136]⟩
abbrev S32x8 : Shape := ⟨2, ![32, 8]⟩
abbrev S32 : Shape := ⟨1, ![32]⟩
abbrev S16x32 : Shape := ⟨2, ![16, 32]⟩
abbrev S16 : Shape := ⟨1, ![16]⟩
abbrev S32x24 : Shape := ⟨2, ![32, 24]⟩
abbrev S2x32 : Shape := ⟨2, ![2, 32]⟩
abbrev S2 : Shape := ⟨1, ![2]⟩
abbrev S262144x8 : Shape := ⟨2, ![262144, 8]⟩
abbrev S262144x128 : Shape := ⟨2, ![262144, 128]⟩
abbrev S262144x8x16 : Shape := ⟨3, ![262144, 8, 16]⟩
abbrev S262144x16x8 : Shape := ⟨3, ![262144, 16, 8]⟩
abbrev S4194304x8 : Shape := ⟨2, ![4194304, 8]⟩
abbrev S8x32 : Shape := ⟨2, ![8, 32]⟩
abbrev S4194304x32 : Shape := ⟨2, ![4194304, 32]⟩
abbrev S1x32 : Shape := ⟨2, ![1, 32]⟩
abbrev S_ : Shape := ⟨0, ![]⟩
abbrev S32x16 : Shape := ⟨2, ![32, 16]⟩
abbrev S4194304x16 : Shape := ⟨2, ![4194304, 16]⟩
abbrev S1x16 : Shape := ⟨2, ![1, 16]⟩
abbrev S262144x16x16 : Shape := ⟨3, ![262144, 16, 16]⟩
abbrev S262144x16 : Shape := ⟨2, ![262144, 16]⟩
abbrev S262144x24 : Shape := ⟨2, ![262144, 24]⟩
abbrev S24x32 : Shape := ⟨2, ![24, 32]⟩
abbrev S262144x32 : Shape := ⟨2, ![262144, 32]⟩
abbrev S32x2 : Shape := ⟨2, ![32, 2]⟩
abbrev S262144x2 : Shape := ⟨2, ![262144, 2]⟩
abbrev S1x2 : Shape := ⟨2, ![1, 2]⟩

abbrev nBuf : Space → Nat
  | .hbm => 50
  | .vmem => 0
  | .smem => 0
  | _ => 0

abbrev bufTy : (tb : Table) → Fin (tcTables nBuf tb) → BufTy
  | .hbm, ⟨0, _⟩ => ⟨S262144x136, .f32⟩
  | .hbm, ⟨1, _⟩ => ⟨S32x8, .f32⟩
  | .hbm, ⟨2, _⟩ => ⟨S32, .f32⟩
  | .hbm, ⟨3, _⟩ => ⟨S16x32, .f32⟩
  | .hbm, ⟨4, _⟩ => ⟨S16, .f32⟩
  | .hbm, ⟨5, _⟩ => ⟨S32x24, .f32⟩
  | .hbm, ⟨6, _⟩ => ⟨S32, .f32⟩
  | .hbm, ⟨7, _⟩ => ⟨S2x32, .f32⟩
  | .hbm, ⟨8, _⟩ => ⟨S2, .f32⟩
  | .hbm, ⟨9, _⟩ => ⟨S262144x8, .f32⟩
  | .hbm, ⟨10, _⟩ => ⟨S262144x128, .f32⟩
  | .hbm, ⟨11, _⟩ => ⟨S262144x8x16, .f32⟩
  | .hbm, ⟨12, _⟩ => ⟨S262144x16x8, .f32⟩
  | .hbm, ⟨13, _⟩ => ⟨S4194304x8, .f32⟩
  | .hbm, ⟨14, _⟩ => ⟨S8x32, .f32⟩
  | .hbm, ⟨15, _⟩ => ⟨S4194304x32, .f32⟩
  | .hbm, ⟨16, _⟩ => ⟨S1x32, .f32⟩
  | .hbm, ⟨17, _⟩ => ⟨S4194304x32, .f32⟩
  | .hbm, ⟨18, _⟩ => ⟨S4194304x32, .f32⟩
  | .hbm, ⟨19, _⟩ => ⟨S_, .f32⟩
  | .hbm, ⟨20, _⟩ => ⟨S4194304x32, .f32⟩
  | .hbm, ⟨21, _⟩ => ⟨S4194304x32, .f32⟩
  | .hbm, ⟨22, _⟩ => ⟨S32x16, .f32⟩
  | .hbm, ⟨23, _⟩ => ⟨S4194304x16, .f32⟩
  | .hbm, ⟨24, _⟩ => ⟨S1x16, .f32⟩
  | .hbm, ⟨25, _⟩ => ⟨S4194304x16, .f32⟩
  | .hbm, ⟨26, _⟩ => ⟨S4194304x16, .f32⟩
  | .hbm, ⟨27, _⟩ => ⟨S_, .f32⟩
  | .hbm, ⟨28, _⟩ => ⟨S4194304x16, .f32⟩
  | .hbm, ⟨29, _⟩ => ⟨S4194304x16, .f32⟩
  | .hbm, ⟨30, _⟩ => ⟨S262144x16x16, .f32⟩
  | .hbm, ⟨31, _⟩ => ⟨S_, .f32⟩
  | .hbm, ⟨32, _⟩ => ⟨S262144x16, .f32⟩
  | .hbm, ⟨33, _⟩ => ⟨S262144x24, .f32⟩
  | .hbm, ⟨34, _⟩ => ⟨S24x32, .f32⟩
  | .hbm, ⟨35, _⟩ => ⟨S262144x32, .f32⟩
  | .hbm, ⟨36, _⟩ => ⟨S1x32, .f32⟩
  | .hbm, ⟨37, _⟩ => ⟨S262144x32, .f32⟩
  | .hbm, ⟨38, _⟩ => ⟨S262144x32, .f32⟩
  | .hbm, ⟨39, _⟩ => ⟨S_, .f32⟩
  | .hbm, ⟨40, _⟩ => ⟨S262144x32, .f32⟩
  | .hbm, ⟨41, _⟩ => ⟨S262144x32, .f32⟩
  | .hbm, ⟨42, _⟩ => ⟨S32x2, .f32⟩
  | .hbm, ⟨43, _⟩ => ⟨S262144x2, .f32⟩
  | .hbm, ⟨44, _⟩ => ⟨S1x2, .f32⟩
  | .hbm, ⟨45, _⟩ => ⟨S262144x2, .f32⟩
  | .hbm, ⟨46, _⟩ => ⟨S262144x2, .f32⟩
  | .hbm, ⟨47, _⟩ => ⟨S_, .f32⟩
  | .hbm, ⟨48, _⟩ => ⟨S262144x2, .f32⟩
  | .hbm, ⟨49, _⟩ => ⟨S262144x2, .f32⟩
  | _, _ => ⟨S262144x136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_cst : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_cst : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call2_cst : Ref sig .tc := ⟨.hbm, 39, rfl⟩
abbrev main_call2_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call3_cst : Ref sig .tc := ⟨.hbm, 47, rfl⟩
abbrev main_call3_v0 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  slices_S262144x136_S262144x8_0_0 : S262144x136.Slices ![0, 0] S262144x8
  slices_S262144x136_S262144x128_0_8 : S262144x136.Slices ![0, 8] S262144x128
  shapeCasts_S262144x128_S262144x8x16 : S262144x128.ShapeCasts S262144x8x16
  transposes_S262144x8x16_S262144x16x8_0_2_1 : S262144x8x16.Transposes [0, 2, 1] S262144x16x8
  shapeCasts_S262144x16x8_S4194304x8 : S262144x16x8.ShapeCasts S4194304x8
  transposes_S32x8_S8x32_1_0 : S32x8.Transposes [1, 0] S8x32
  bcast_S32_S1x32_1 : S32.BroadcastsInDim S1x32 (![1] : Fin 1 → Fin S1x32.rank)
  bcast_S1x32_S4194304x32_0_1 : S1x32.BroadcastsInDim S4194304x32 (![0, 1] : Fin 2 → Fin S4194304x32.rank)
  bcast_S_S4194304x32 : S_.BroadcastsInDim S4194304x32 (![] : Fin 0 → Fin S4194304x32.rank)
  transposes_S16x32_S32x16_1_0 : S16x32.Transposes [1, 0] S32x16
  bcast_S16_S1x16_1 : S16.BroadcastsInDim S1x16 (![1] : Fin 1 → Fin S1x16.rank)
  bcast_S1x16_S4194304x16_0_1 : S1x16.BroadcastsInDim S4194304x16 (![0, 1] : Fin 2 → Fin S4194304x16.rank)
  bcast_S_S4194304x16 : S_.BroadcastsInDim S4194304x16 (![] : Fin 0 → Fin S4194304x16.rank)
  shapeCasts_S4194304x16_S262144x16x16 : S4194304x16.ShapeCasts S262144x16x16
  reducesTo_S262144x16x16_S262144x16_d1 : S262144x16x16.ReducesTo [1] S262144x16
  h_S_ : 0 < S_.numel
  concatenates_S262144x8_S262144x16_S262144x24_d1 : Shape.Concatenates [S262144x8, S262144x16] S262144x24 1
  transposes_S32x24_S24x32_1_0 : S32x24.Transposes [1, 0] S24x32
  bcast_S1x32_S262144x32_0_1 : S1x32.BroadcastsInDim S262144x32 (![0, 1] : Fin 2 → Fin S262144x32.rank)
  bcast_S_S262144x32 : S_.BroadcastsInDim S262144x32 (![] : Fin 0 → Fin S262144x32.rank)
  transposes_S2x32_S32x2_1_0 : S2x32.Transposes [1, 0] S32x2
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  bcast_S_S262144x2 : S_.BroadcastsInDim S262144x2 (![] : Fin 0 → Fin S262144x2.rank)
  dot_S4194304x8_S8x32_S4194304x32_1_0_0_1_n_n_wf : DotDims.WF S4194304x8 S8x32 S4194304x32 [1] [0] [0] [1] [] []
  dot_S4194304x32_S32x16_S4194304x16_1_0_0_1_n_n_wf : DotDims.WF S4194304x32 S32x16 S4194304x16 [1] [0] [0] [1] [] []
  dot_S262144x24_S24x32_S262144x32_1_0_0_1_n_n_wf : DotDims.WF S262144x24 S24x32 S262144x32 [1] [0] [0] [1] [] []
  dot_S262144x32_S32x2_S262144x2_1_0_0_1_n_n_wf : DotDims.WF S262144x32 S32x2 S262144x2 [1] [0] [0] [1] [] []

variable [Facts₀]

def dot_S4194304x8_S8x32_S4194304x32_1_0_0_1_n_n : DotDims S4194304x8 S8x32 S4194304x32 where
  lhsContracting := [1]
  rhsContracting := [0]
  lhsNonContracting := [0]
  rhsNonContracting := [1]
  lhsBatch := []
  rhsBatch := []
  wf := dot_S4194304x8_S8x32_S4194304x32_1_0_0_1_n_n_wf
def dot_S4194304x32_S32x16_S4194304x16_1_0_0_1_n_n : DotDims S4194304x32 S32x16 S4194304x16 where
  lhsContracting := [1]
  rhsContracting := [0]
  lhsNonContracting := [0]
  rhsNonContracting := [1]
  lhsBatch := []
  rhsBatch := []
  wf := dot_S4194304x32_S32x16_S4194304x16_1_0_0_1_n_n_wf
def dot_S262144x24_S24x32_S262144x32_1_0_0_1_n_n : DotDims S262144x24 S24x32 S262144x32 where
  lhsContracting := [1]
  rhsContracting := [0]
  lhsNonContracting := [0]
  rhsNonContracting := [1]
  lhsBatch := []
  rhsBatch := []
  wf := dot_S262144x24_S24x32_S262144x32_1_0_0_1_n_n_wf
def dot_S262144x32_S32x2_S262144x2_1_0_0_1_n_n : DotDims S262144x32 S32x2 S262144x2 where
  lhsContracting := [1]
  rhsContracting := [0]
  lhsNonContracting := [0]
  rhsNonContracting := [1]
  lhsBatch := []
  rhsBatch := []
  wf := dot_S262144x32_S32x2_S262144x2_1_0_0_1_n_n_wf

class Facts : Prop extends Facts₀ where

variable [Facts]
-- ==== Proof.PoolNet.lean ====
/-
  The function both programs compute, one sample (one row of the input) at a time.

  A row holds 136 numbers: the sample's own 8 features, then, for each of its 8 features `d` and each of its 16
  neighbours `j`, feature `d` of neighbour `j` at column `8 + d·16 + j`. With weight matrices `w1` (32×8), `w2` (16×32),
  `r1` (32×24), `r2` (2×32) and bias vectors `b1`, `b2`, `c1`, `c2`:

    hidden j a  = relu (Σ_d  row(8 + d·16 + j) · w1(a, d) + b1 a)        one neighbour's first layer
    embed  j b  = relu (Σ_a  hidden j a · w2(b, a) + b2 b)                 its second layer
    pooled b    = Σ_j  embed j b                                           the neighbours added up
    feature k   = row k  for k < 8,   pooled (k − 8)  for 8 ≤ k < 24       own features, then the pooled ones
    head a      = relu (Σ_k  feature k · r1(a, k) + c1 a)
    out o       = relu (Σ_a  head a · r2(o, a) + c2 o)

  where relu x = max x 0, the zero being the float word both programs write. Everything is over the extended reals;
  only sums, products and maxima occur, in the same order on both sides, so no law of arithmetic is needed to join them.
-/
import Idealize.ShloMosaic.PureOps.Ideal
import Idealize.ShloMosaic.PureOps.Ideal.Laws
import Idealize.ShloMosaic.Lib.ValueIdx

open scoped BigOperators

noncomputable section

namespace Cert.PoolNet

open Idealize.ShloMosaic

/-- The zero both programs compare against, as the float word they write. -/
abbrev zero : EReal := Ideal.ofBits .f32 0x00000000#32

/-- `max x 0`. -/
def relu (x : EReal) : EReal := max x zero

/-- The column of a row that holds feature `d` of neighbour `j`. -/
def nbrCol (d : Fin 8) (j : Fin 16) : Fin 136 := ⟨8 + (d.val * 16 + j.val), by omega⟩

section
variable (w1 : Fin 32 → Fin 8 → EReal) (b1 : Fin 32 → EReal) (w2 : Fin 16 → Fin 32 → EReal) (b2 : Fin 16 → EReal)
  (r1 : Fin 32 → Fin 24 → EReal) (c1 : Fin 32 → EReal) (r2 : Fin 2 → Fin 32 → EReal) (c2 : Fin 2 → EReal)
  (row : Fin 136 → EReal)

/-- Neighbour `j`'s first layer, unit `a`. -/
def hidden (j : Fin 16) (a : Fin 32) : EReal := relu ((∑ d : Fin 8, row (nbrCol d j) * w1 a d) + b1 a)

/-- Neighbour `j`'s second layer, unit `b`. -/
def embed (j : Fin 16) (b : Fin 16) : EReal := relu ((∑ a : Fin 32, hidden w1 b1 row j a * w2 b a) + b2 b)

/-- The sixteen neighbours' second layers added. -/
def pooled (b : Fin 16) : EReal := ∑ j : Fin 16, embed w1 b1 w2 b2 row j b

/-- The 24 inputs of the last two layers: the sample's own 8 features, then the 16 pooled ones. -/
def feature (k : Fin 24) : EReal :=
  if h : k.val < 8 then row ⟨k.val, by omega⟩ else pooled w1 b1 w2 b2 row ⟨k.val - 8, by omega⟩

/-- The third layer, unit `a`. -/
def head (a : Fin 32) : EReal := relu ((∑ k : Fin 24, feature w1 b1 w2 b2 row k * r1 a k) + c1 a)

/-- The result, unit `o`. -/
def out (o : Fin 2) : EReal := relu ((∑ a : Fin 32, head w1 b1 w2 b2 r1 c1 row a * r2 o a) + c2 o)

end

/-- THE RESULT ARRAY, [262144, 2], as one function of the nine argument arrays: entry (g, o) is `out` of row `g` of
    the input, unit `o`, with each weight matrix read by its two coordinates and each bias by its one. -/
def result (x0 : (⟨2, ![262144, 136]⟩ : Shape).Idx → EReal) (x1 : (⟨2, ![32, 8]⟩ : Shape).Idx → EReal)
    (x2 : (⟨1, ![32]⟩ : Shape).Idx → EReal) (x3 : (⟨2, ![16, 32]⟩ : Shape).Idx → EReal)
    (x4 : (⟨1, ![16]⟩ : Shape).Idx → EReal) (x5 : (⟨2, ![32, 24]⟩ : Shape).Idx → EReal)
    (x6 : (⟨1, ![32]⟩ : Shape).Idx → EReal) (x7 : (⟨2, ![2, 32]⟩ : Shape).Idx → EReal)
    (x8 : (⟨1, ![2]⟩ : Shape).Idx → EReal) : (⟨2, ![262144, 2]⟩ : Shape).Idx → EReal := fun i =>
  out (fun a d => x1 (ValueIdx.ix2 a d)) (fun a => x2 (ValueIdx.ix1 a)) (fun b a => x3 (ValueIdx.ix2 b a))
    (fun b => x4 (ValueIdx.ix1 b)) (fun a k => x5 (ValueIdx.ix2 a k)) (fun a => x6 (ValueIdx.ix1 a))
    (fun o a => x7 (ValueIdx.ix2 o a)) (fun o => x8 (ValueIdx.ix1 o))
    (fun k => x0 (ValueIdx.ix2 (⟨(i 0).val, (i 0).isLt⟩ : Fin 262144) k)) (⟨(i 1).val, (i 1).isLt⟩ : Fin 2)

end Cert.PoolNet

end
-- ==== Proof.RefPoolNet.lean ====
/-
  The reference program computes `PoolNet.out` of each row.

  The reference works on the whole [262144, 136] input at once. It lays the 16 neighbours of all samples out as
  4194304 = 262144 · 16 rows of 8 features (row `g·16 + j` is neighbour `j` of sample `g`; its feature `d` is the
  input at column `8 + d·16 + j` of row `g`), applies the two neighbour layers to that tall matrix, folds the rows back
  to [262144, 16, 16] and adds over the neighbours, joins the sample's own 8 features in front, and applies the last
  two layers. Read at one index, stage by stage, each of these is the stage of `PoolNet` with the same name: the
  weights enter transposed (`w.T`), which at an index only swaps the two coordinates, and the biases as rows
  broadcast down the matrix, which at an index is the bias entry of that column.
-/
import proofs.«177243_j38817914422128_1_alg».proof.Proof.Gen.ReferenceIdeal.Read
import proofs.«177243_j38817914422128_1_alg».proof.Proof.PoolNet
import Idealize.ShloMosaic.Lib.ValueIdx
import Idealize.ShloMosaic.Lib.Pipeline.Value
import Idealize.ShloMosaic.PureOps.Ideal.Laws

open scoped BigOperators

noncomputable section

namespace Cert.RefPoolNet

open Cert.ReferenceIdeal Cert.ReferenceIdeal.Gen Cert.ReferenceIdeal.Read
open Idealize.ShloMosaic Idealize.ShloMosaic.ValueIdx

/-- Row `g·16 + j` of the tall neighbour matrix: neighbour `j` of sample `g`. -/
abbrev nbrRow (g : Fin 262144) (j : Fin 16) : Fin 4194304 := ⟨g.val * 16 + j.val, by omega⟩

variable (x0 : (⟨S262144x136, .f32⟩ : BufTy).Contents (Elt Ideal)) (x1 : (⟨S32x8, .f32⟩ : BufTy).Contents (Elt Ideal))
  (x2 : (⟨S32, .f32⟩ : BufTy).Contents (Elt Ideal)) (x3 : (⟨S16x32, .f32⟩ : BufTy).Contents (Elt Ideal))
  (x4 : (⟨S16, .f32⟩ : BufTy).Contents (Elt Ideal)) (x5 : (⟨S32x24, .f32⟩ : BufTy).Contents (Elt Ideal))
  (x6 : (⟨S32, .f32⟩ : BufTy).Contents (Elt Ideal)) (x7 : (⟨S2x32, .f32⟩ : BufTy).Contents (Elt Ideal))
  (x8 : (⟨S2, .f32⟩ : BufTy).Contents (Elt Ideal))

/-! ## The arguments as the specification takes them -/

/-- A matrix argument by its two coordinates. -/
abbrev mat {p q : Nat} (w : (⟨2, ![p, q]⟩ : Shape).Idx → EReal) : Fin p → Fin q → EReal := fun a b => w (ix2 a b)
/-- A vector argument by its coordinate. -/
abbrev vec {p : Nat} (v : (⟨1, ![p]⟩ : Shape).Idx → EReal) : Fin p → EReal := fun a => v (ix1 a)
/-- Row `g` of the input. -/
abbrev rowOf (g : Fin 262144) : Fin 136 → EReal := fun k => x0 (ix2 g k)

/-! ## The neighbours' first layer -/

/-- Where the tall matrix's entry (g·16 + j, d) sits in the input: row `g`, column `8 + d·16 + j`. -/
theorem nbr_idx (g : Fin 262144) (j : Fin 16) (d : Fin 8) :
    idx_main_v1 (idx_main_v2 (idx_main_v3 (idx_main_v4 (ix2 (nbrRow g j) d)))) = ix2 g (PoolNet.nbrCol d j) := by
  have hg := g.isLt; have hj := j.isLt; have hd := d.isLt
  -- position (g·16 + j)·8 + d of the tall matrix, split three ways
  have e1 : ((g.val * 16 + j.val) * 8 + d.val) / 128 = g.val := by omega
  have e2 : ((g.val * 16 + j.val) * 8 + d.val) % 8 = d.val := by omega
  have e3 : ((g.val * 16 + j.val) * 8 + d.val) / 8 % 16 = j.val := by omega
  funext ax; apply Fin.ext
  match ax with
  | ⟨0, _⟩ =>
    show ((((g.val * 16 + j.val) * 8 + d.val) / 128 * 8 + ((g.val * 16 + j.val) * 8 + d.val) % 8) * 16
        + ((g.val * 16 + j.val) * 8 + d.val) / 8 % 16) / 128 = g.val
    rw [e1, e2, e3]; omega
  | ⟨1, _⟩ =>
    show 8 + ((((g.val * 16 + j.val) * 8 + d.val) / 128 * 8 + ((g.val * 16 + j.val) * 8 + d.val) % 8) * 16
        + ((g.val * 16 + j.val) * 8 + d.val) / 8 % 16) % 128 = 8 + (d.val * 16 + j.val)
    rw [e1, e2, e3]; omega

theorem lidx6 (R : Fin 4194304) (a : Fin 32) (k : Fin 8) : lidx_main_v6 (ix2 R a) k = ix2 R k :=
  funext fun ax => Fin.ext (by match ax with | ⟨0, _⟩ => rfl | ⟨1, _⟩ => rfl)
theorem ridx6 (R : Fin 4194304) (a : Fin 32) (k : Fin 8) : ridx_main_v6 (ix2 R a) k = ix2 k a :=
  funext fun ax => Fin.ext (by match ax with | ⟨0, _⟩ => rfl | ⟨1, _⟩ => rfl)
theorem idx5 (k : Fin 8) (a : Fin 32) : idx_main_v5 (ix2 k a) = ix2 a k :=
  funext fun ax => Fin.ext (by match ax with | ⟨0, _⟩ => rfl | ⟨1, _⟩ => rfl)
theorem idx78 (R : Fin 4194304) (a : Fin 32) : idx_main_v7 (idx_main_v8 (ix2 R a)) = ix1 a :=
  funext fun ax => Fin.ext (by match ax with | ⟨0, _⟩ => rfl)

/-- The first layer of the tall matrix at (g·16 + j, a) is neighbour `j`'s first layer of row `g`. -/
theorem hidden_eq (g : Fin 262144) (j : Fin 16) (a : Fin 32) :
    val_main_v10 (F := Ideal) x0 x1 x2 (ix2 (nbrRow g j) a)
      = PoolNet.hidden (mat x1) (vec x2) (rowOf x0 g) j a := by
  rw [val_main_v10_apply, val_main_v9_apply, val_main_v6_apply, val_main_v8_apply, val_main_v7_apply,
    val_main_call0_v0_apply, val_main_call0_cst_apply, idx78]
  unfold PoolNet.hidden PoolNet.relu
  refine congrArg₂ max (congrArg₂ (· + ·) (Finset.sum_congr rfl fun d _ => ?_) rfl) rfl
  rw [lidx6, ridx6, val_main_v4_apply, val_main_v3_apply, val_main_v2_apply, val_main_v1_apply, nbr_idx,
    val_main_v5_apply, idx5]

/-! ## The neighbours' second layer -/

theorem lidx12 (R : Fin 4194304) (b : Fin 16) (k : Fin 32) : lidx_main_v12 (ix2 R b) k = ix2 R k :=
  funext fun ax => Fin.ext (by match ax with | ⟨0, _⟩ => rfl | ⟨1, _⟩ => rfl)
theorem ridx12 (R : Fin 4194304) (b : Fin 16) (k : Fin 32) : ridx_main_v12 (ix2 R b) k = ix2 k b :=
  funext fun ax => Fin.ext (by match ax with | ⟨0, _⟩ => rfl | ⟨1, _⟩ => rfl)
theorem idx11 (k : Fin 32) (b : Fin 16) : idx_main_v11 (ix2 k b) = ix2 b k :=
  funext fun ax => Fin.ext (by match ax with | ⟨0, _⟩ => rfl | ⟨1, _⟩ => rfl)
theorem idx1314 (R : Fin 4194304) (b : Fin 16) : idx_main_v13 (idx_main_v14 (ix2 R b)) = ix1 b :=
  funext fun ax => Fin.ext (by match ax with | ⟨0, _⟩ => rfl)

/-- The second layer of the tall matrix at (g·16 + j, b) is neighbour `j`'s second layer of row `g`. -/
theorem embed_eq (g : Fin 262144) (j : Fin 16) (b : Fin 16) :
    val_main_v16 (F := Ideal) x0 x1 x2 x3 x4 (ix2 (nbrRow g j) b)
      = PoolNet.embed (mat x1) (vec x2) (mat x3) (vec x4) (rowOf x0 g) j b := by
  rw [val_main_v16_apply, val_main_v15_apply, val_main_v12_apply, val_main_v14_apply, val_main_v13_apply,
    val_main_call1_v0_apply, val_main_call1_cst_apply, idx1314]
  unfold PoolNet.embed PoolNet.relu
  refine congrArg₂ max (congrArg₂ (· + ·) (Finset.sum_congr rfl fun a _ => ?_) rfl) rfl
  rw [lidx12, ridx12, hidden_eq, val_main_v11_apply, idx11]

/-! ## The sum over the neighbours, and the 24 features -/

/-- Folding the tall matrix back: entry (g, k, b) of the [262144, 16, 16] array is entry (g·16 + k, b). -/
theorem fold_idx (g : Fin 262144) (b : Fin 16) (k : Fin 16) :
    idx_main_v17 (idx_main_v18 (ix2 g b) k) = ix2 (nbrRow g k) b := by
  have hg := g.isLt; have hb := b.isLt; have hk := k.isLt
  funext ax; apply Fin.ext
  match ax with
  | ⟨0, _⟩ => show ((g.val * 16 + k.val) * 16 + b.val) / 16 = g.val * 16 + k.val; omega
  | ⟨1, _⟩ => show ((g.val * 16 + k.val) * 16 + b.val) % 16 = b.val; omega

/-- The host's sum over the neighbours, started from the zero word, is the plain sum of the second layers. -/
theorem pooled_eq (g : Fin 262144) (b : Fin 16) :
    val_main_v18 (F := Ideal) x0 x1 x2 x3 x4 (ix2 g b)
      = PoolNet.pooled (mat x1) (vec x2) (mat x3) (vec x4) (rowOf x0 g) b := by
  rw [val_main_v18_apply, val_main_cst_apply]
  show Ideal.ofBits .f32 0x00000000#32 + _ = _
  rw [Ideal.ofBits_zero_f32, zero_add]
  unfold PoolNet.pooled
  refine Finset.sum_congr rfl fun k _ => ?_
  rw [val_main_v17_apply, fold_idx, embed_eq]

/-- The joined [262144, 24] array at (g, k): the sample's own feature `k` for `k < 8`, else pooled feature `k − 8`. -/
theorem feature_eq (g : Fin 262144) (k : Fin 24) :
    val_main_v19 (F := Ideal) x0 x1 x2 x3 x4 (ix2 g k)
      = PoolNet.feature (mat x1) (vec x2) (mat x3) (vec x4) (rowOf x0 g) k := by
  unfold val_main_v19 PoolNet.feature
  by_cases h : k.val < 8
  · rw [dif_pos h]
    refine (concatenate_pair_apply_left (t := S262144x24) (s₁ := S262144x8) (s₂ := S262144x16) (1 : Fin 2) _ _ concatenates_S262144x8_S262144x16_S262144x24_d1
      (ix2 g k) rfl (ix2 g (⟨k.val, h⟩ : Fin 8)) (fun b => by match b with | ⟨0, _⟩ => rfl | ⟨1, _⟩ => rfl)).trans ?_
    rw [val_main_v0_apply]
    exact congrArg x0 (funext fun ax => Fin.ext (by match ax with | ⟨0, _⟩ => rfl | ⟨1, _⟩ => rfl))
  · rw [dif_neg h]
    have hk := k.isLt
    refine (concatenate_pair_apply_right (t := S262144x24) (s₁ := S262144x8) (s₂ := S262144x16) (1 : Fin 2) _ _ concatenates_S262144x8_S262144x16_S262144x24_d1
      (ix2 g k) rfl rfl (ix2 g (⟨k.val - 8, by omega⟩ : Fin 16))
      (fun b hb => by match b with | ⟨0, _⟩ => rfl | ⟨1, _⟩ => exact absurd rfl hb)
      (by show k.val - 8 + 8 = k.val; omega)).trans ?_
    exact pooled_eq x0 x1 x2 x3 x4 g _

/-! ## The last two layers -/

theorem lidx21 (g : Fin 262144) (a : Fin 32) (k : Fin 24) : lidx_main_v21 (ix2 g a) k = ix2 g k :=
  funext fun ax => Fin.ext (by match ax with | ⟨0, _⟩ => rfl | ⟨1, _⟩ => rfl)
theorem ridx21 (g : Fin 262144) (a : Fin 32) (k : Fin 24) : ridx_main_v21 (ix2 g a) k = ix2 k a :=
  funext fun ax => Fin.ext (by match ax with | ⟨0, _⟩ => rfl | ⟨1, _⟩ => rfl)
theorem idx20 (k : Fin 24) (a : Fin 32) : idx_main_v20 (ix2 k a) = ix2 a k :=
  funext fun ax => Fin.ext (by match ax with | ⟨0, _⟩ => rfl | ⟨1, _⟩ => rfl)
theorem idx2223 (g : Fin 262144) (a : Fin 32) : idx_main_v22 (idx_main_v23 (ix2 g a)) = ix1 a :=
  funext fun ax => Fin.ext (by match ax with | ⟨0, _⟩ => rfl)

/-- The third layer at (g, a). -/
theorem head_eq (g : Fin 262144) (a : Fin 32) :
    val_main_v25 (F := Ideal) x0 x1 x2 x3 x4 x5 x6 (ix2 g a)
      = PoolNet.head (mat x1) (vec x2) (mat x3) (vec x4) (mat x5) (vec x6) (rowOf x0 g) a := by
  rw [val_main_v25_apply, val_main_v24_apply, val_main_v21_apply, val_main_v23_apply, val_main_v22_apply,
    val_main_call2_v0_apply, val_main_call2_cst_apply, idx2223]
  unfold PoolNet.head PoolNet.relu
  refine congrArg₂ max (congrArg₂ (· + ·) (Finset.sum_congr rfl fun k _ => ?_) rfl) rfl
  rw [lidx21, ridx21, feature_eq, val_main_v20_apply, idx20]

theorem lidx27 (g : Fin 262144) (o : Fin 2) (k : Fin 32) : lidx_main_v27 (ix2 g o) k = ix2 g k :=
  funext fun ax => Fin.ext (by match ax with | ⟨0, _⟩ => rfl | ⟨1, _⟩ => rfl)
theorem ridx27 (g : Fin 262144) (o : Fin 2) (k : Fin 32) : ridx_main_v27 (ix2 g o) k = ix2 k o :=
  funext fun ax => Fin.ext (by match ax with | ⟨0, _⟩ => rfl | ⟨1, _⟩ => rfl)
theorem idx26 (k : Fin 32) (o : Fin 2) : idx_main_v26 (ix2 k o) = ix2 o k :=
  funext fun ax => Fin.ext (by match ax with | ⟨0, _⟩ => rfl | ⟨1, _⟩ => rfl)
theorem idx2829 (g : Fin 262144) (o : Fin 2) : idx_main_v28 (idx_main_v29 (ix2 g o)) = ix1 o :=
  funext fun ax => Fin.ext (by match ax with | ⟨0, _⟩ => rfl)

/-- THE REFERENCE'S RESULT at (g, o) is `PoolNet.out` of row `g`, unit `o`. -/
theorem out_eq (g : Fin 262144) (o : Fin 2) :
    val_main_v31 (F := Ideal) x0 x1 x2 x3 x4 x5 x6 x7 x8 (ix2 g o)
      = PoolNet.out (mat x1) (vec x2) (mat x3) (vec x4) (mat x5) (vec x6) (mat x7) (vec x8) (rowOf x0 g) o := by
  rw [val_main_v31_apply, val_main_v30_apply, val_main_v27_apply, val_main_v29_apply, val_main_v28_apply,
    val_main_call3_v0_apply, val_main_call3_cst_apply, idx2829]
  unfold PoolNet.out PoolNet.relu
  refine congrArg₂ max (congrArg₂ (· + ·) (Finset.sum_congr rfl fun a _ => ?_) rfl) rfl
  rw [lidx27, ridx27, head_eq, val_main_v26_apply, idx26]

/-- So the reference's result array IS `PoolNet.result` of its nine arguments. -/
theorem result_eq :
    val_main_v31 (F := Ideal) x0 x1 x2 x3 x4 x5 x6 x7 x8 = PoolNet.result x0 x1 x2 x3 x4 x5 x6 x7 x8 := by
  funext i
  obtain ⟨g, o, rfl⟩ : ∃ (g : Fin 262144) (o : Fin 2), i = ix2 g o := ⟨i 0, i 1, eq_ix2 i⟩
  exact out_eq x0 x1 x2 x3 x4 x5 x6 x7 x8 g o

end Cert.RefPoolNet

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.BlockPoolNet.lean ====
/-
  One block of the kernel computes `PoolNet.out` of each of its 1024 rows.

  The body loads a [1024, 136] block of the input and the eight small weight and bias arrays, already transposed
  ([8, 32], [32, 16], [24, 32], [32, 2]) and laid out as rows ([1, 32], [1, 16], [1, 32], [1, 2]). It builds the
  block's neighbour matrix, [16384, 8] with row `r·16 + j` neighbour `j` of the block's row `r`, by a slice, a fold to
  [1024, 8, 16], a swap of the last two axes and a fold to [16384, 8]; then four times the same layer — a matrix
  product into a zero accumulator, plus the bias row broadcast down, then the maximum with zero —, between the
  second and the third the sum over the 16 neighbours and the join with the row's own 8 features. The roundings to a
  shorter float format on the way into each product do nothing over the extended reals.

  So the stages are written here once, as the body's operations composed (`nbrs`, `dense`, `pool`, `feats`), the
  body's stored value is their composition by unfolding, and each stage read at an index is the stage of `PoolNet`
  with the same name, with the weights read transposed and the biases read from their one row.
-/
import proofs.«177243_j38817914422128_1_alg».proof.Proof.Gen.KernelIdeal.Skeleton
import proofs.«177243_j38817914422128_1_alg».proof.Proof.PoolNet
import proofs.«177243_j38817914422128_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.BlockPoolNet

open Cert.KernelIdeal Cert.KernelIdeal.Gen
open Idealize.ShloMosaic Idealize.ShloMosaic.ValueIdx

/-- Row `r·16 + j` of a block's neighbour matrix: neighbour `j` of the block's row `r`. -/
abbrev nbrRow (r : Fin 1024) (j : Fin 16) : Fin 16384 := ⟨r.val * 16 + j.val, by omega⟩

/-! ## One dense layer, at any sizes -/

section Dense
variable {A K B : Nat} (d : DotDims ⟨2, ![A, K]⟩ ⟨2, ![K, B]⟩ ⟨2, ![A, B]⟩)

/-- A layer as the body writes it: `x` and the weights `w` rounded into a product with a zero accumulator, the bias row
    `b` broadcast down the rows and added, the maximum with the zero word. -/
def dense (x : FVec Ideal ⟨2, ![A, K]⟩ .f32) (w : FVec Ideal ⟨2, ![K, B]⟩ .f32) (b : FVec Ideal ⟨2, ![1, B]⟩ .f32)
    (hw : (⟨2, ![K, B]⟩ : Shape).ShapeCasts ⟨2, ![K, B]⟩) (hb : (⟨2, ![1, B]⟩ : Shape).ShapeCasts ⟨2, ![1, B]⟩)
    (hbc : (⟨2, ![1, B]⟩ : Shape).Broadcasts ⟨2, ![A, B]⟩) (hlt : FTy.bits .bf16 < FTy.bits .f32) :
    FVec Ideal ⟨2, ![A, B]⟩ .f32 :=
  maximumf
    (addf
      (matmul d none (truncf .bf16 x hlt) (truncf .bf16 (shapeCast ⟨2, ![K, B]⟩ w hw) hlt)
        (constant ⟨2, ![A, B]⟩ .f32 0x00000000#32))
      (broadcastTo ⟨2, ![A, B]⟩ (shapeCast ⟨2, ![1, B]⟩ b hb) hbc))
    (broadcast ⟨2, ![A, B]⟩ (Scalar.ofBits .f32 0x00000000#32))

/-- At (p, q) the layer is `relu (Σ_k x(p, k) · w(k, q) + b(0, q))`: the product into zero is the plain sum along row
    `p` and column `q`, the rounding and the casts of an array to its own shape are the identity, and the broadcast
    row reads its entry of column `q`. -/
theorem dense_apply (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ .f32) (w : FVec Ideal ⟨2, ![K, B]⟩ .f32) (b : FVec Ideal ⟨2, ![1, B]⟩ .f32)
    (hw : (⟨2, ![K, B]⟩ : Shape).ShapeCasts ⟨2, ![K, B]⟩) (hb : (⟨2, ![1, B]⟩ : Shape).ShapeCasts ⟨2, ![1, B]⟩)
    (hbc : (⟨2, ![1, B]⟩ : Shape).Broadcasts ⟨2, ![A, B]⟩) (hlt : FTy.bits .bf16 < FTy.bits .f32)
    (p : Fin A) (q : Fin B) :
    dense d x w b hw hb hbc hlt (ix2 p q)
      = PoolNet.relu ((∑ k : Fin K, x (ix2 p k) * w (ix2 k q)) + b (ix2 (0 : Fin 1) q)) := by
  unfold dense PoolNet.relu
  refine congrArg₂ max (congrArg₂ (· + ·) ?_ ?_) rfl
  · refine (Ideal.matmul_constant_zero_apply d none _ _ (ix2 p q)).trans ?_
    refine (Cert.PlainDot.sum_eq d hlb hln hlc hrb hrn hrc hr hs _ _ p q).trans ?_
    refine Finset.sum_congr rfl fun k _ => congrArg₂ (· * ·) rfl ?_
    exact congrFun (shapeCast_self w hw) (ix2 k q)
  · refine (broadcastTo_1b_ab_apply _ hbc p q).trans ?_
    exact congrFun (shapeCast_self b hb) (ix2 (0 : Fin 1) q)

end Dense

/-! ## The layout stages -/

/-- The block's neighbour matrix: columns 8‥135 folded to [1024, 8, 16], the last two axes swapped, folded to
    [16384, 8]. -/
def nbrs (v0 : FVec Ideal S1024x136 .f32) : FVec Ideal S16384x8 .f32 :=
  shapeCast S16384x8
    (transpose S1024x16x8 [0, 2, 1]
      (shapeCast S1024x8x16 (extractStridedSlice S1024x128 ![0, 8] v0 slices_S1024x136_o0_8_S1024x128)
        shapeCasts_S1024x128_S1024x8x16)
      transposes_S1024x8x16_p0_2_1_S1024x16x8)
    shapeCasts_S1024x16x8_S16384x8

/-- Its entry (r·16 + j, d) is the block's entry (r, 8 + d·16 + j): position (r·16 + j)·8 + d of the [16384, 8] array is
    position of (r, j, d) in [1024, 16, 8]; the swap reads (r, d, j); position (r·8 + d)·16 + j of [1024, 8, 16] is
    position r·128 + (d·16 + j) of [1024, 128]; the slice starts at column 8. -/
theorem nbrs_apply (v0 : FVec Ideal S1024x136 .f32) (r : Fin 1024) (j : Fin 16) (d : Fin 8) :
    nbrs v0 (ix2 (nbrRow r j) d) = v0 (ix2 r (PoolNet.nbrCol d j)) := by
  have hr := r.isLt; have hj := j.isLt; have hd := d.isLt
  unfold nbrs
  refine (shapeCast_apply _ shapeCasts_S1024x16x8_S16384x8 (ix2 (nbrRow r j) d) (ix3 r j d) ?_).trans ?_
  · rw [Shape.rowMajor_val_three, Shape.rowMajor_val_two]
    show (r.val * 16 + j.val) * 8 + d.val = (r.val * 16 + j.val) * 8 + d.val
    rfl
  refine (transpose_ix3_021_apply _ transposes_S1024x8x16_p0_2_1_S1024x16x8 r j d).trans ?_
  refine (shapeCast_apply _ shapeCasts_S1024x128_S1024x8x16 (ix3 r d j)
    (ix2 r (⟨d.val * 16 + j.val, by omega⟩ : Fin 128)) ?_).trans ?_
  · rw [Shape.rowMajor_val_two, Shape.rowMajor_val_three]
    show r.val * 128 + (d.val * 16 + j.val) = (r.val * 8 + d.val) * 16 + j.val
    omega
  exact slice2_axis1_apply 8 v0 slices_S1024x136_o0_8_S1024x128 r (⟨d.val * 16 + j.val, by omega⟩ : Fin 128)
    (PoolNet.nbrCol d j) rfl

/-- The sum over the 16 neighbours: the [16384, 16] array folded to [1024, 16, 16] and added along the middle axis. -/
def pool (y : FVec Ideal S16384x16 .f32) : FVec Ideal S1024x16 .f32 :=
  multiReduction .add [1] S1024x16 (shapeCast S1024x16x16 y shapeCasts_S16384x16_S1024x16x16) 0x00000000#32
    reduces_S1024x16x16_S1024x16 (.inl rfl) rfl

/-- At (r, b) it is `Σ_j y(r·16 + j, b)`. -/
theorem pool_apply (y : FVec Ideal S16384x16 .f32) (r : Fin 1024) (b : Fin 16) :
    pool y (ix2 r b) = ∑ j : Fin 16, y (ix2 (nbrRow r j) b) := by
  unfold pool
  refine (Ideal.multiReduction_add_single _ 0x00000000#32 reduces_S1024x16x16_S1024x16 (.inl rfl) rfl (ix2 r b)).trans ?_
  show (∑ j : Fin 16, shapeCast S1024x16x16 y shapeCasts_S16384x16_S1024x16x16
      (reduces_S1024x16x16_S1024x16.lift (ix2 r b) j)) = _
  refine Finset.sum_congr rfl fun j _ => ?_
  refine shapeCast_apply y shapeCasts_S16384x16_S1024x16x16 _ (ix2 (nbrRow r j) b) ?_
  rw [Shape.rowMajor_val_two, Shape.rowMajor_val_three]
  show (r.val * 16 + j.val) * 16 + b.val = (r.val * 16 + j.val) * 16 + b.val
  rfl

/-- The 24 inputs of the last two layers: the block's columns 0‥7 joined with the pooled 16. -/
def feats (v0 : FVec Ideal S1024x136 .f32) (P : FVec Ideal S1024x16 .f32) : FVec Ideal S1024x24 .f32 :=
  concatenate S1024x24 1
    [⟨S1024x8, extractStridedSlice S1024x8 ![0, 0] v0 slices_S1024x136_o0_0_S1024x8⟩, ⟨S1024x16, P⟩]
    concatenates_S1024x8_S1024x16_S1024x24_d1

/-- At (r, k): the block's (r, k) for `k < 8`, else the pooled (r, k − 8). -/
theorem feats_apply (v0 : FVec Ideal S1024x136 .f32) (P : FVec Ideal S1024x16 .f32) (r : Fin 1024) (k : Fin 24) :
    feats v0 P (ix2 r k)
      = if h : k.val < 8 then v0 (ix2 r (⟨k.val, by omega⟩ : Fin 136))
        else P (ix2 r (⟨k.val - 8, by have := k.isLt; omega⟩ : Fin 16)) := by
  unfold feats
  have hk := k.isLt
  by_cases h : k.val < 8
  · rw [dif_pos h]
    refine (concatenate_pair_apply_left (t := S1024x24) (s₁ := S1024x8) (s₂ := S1024x16) (1 : Fin 2) _ _
      concatenates_S1024x8_S1024x16_S1024x24_d1 (ix2 r k) rfl (ix2 r (⟨k.val, h⟩ : Fin 8))
      (fun b => by match b with | ⟨0, _⟩ => rfl | ⟨1, _⟩ => rfl)).trans ?_
    exact slice2_axis1_apply 0 v0 slices_S1024x136_o0_0_S1024x8 r (⟨k.val, h⟩ : Fin 8) (⟨k.val, by omega⟩ : Fin 136)
      (Nat.zero_add _).symm
  · rw [dif_neg h]
    exact concatenate_pair_apply_right (t := S1024x24) (s₁ := S1024x8) (s₂ := S1024x16) (1 : Fin 2) _ _
      concatenates_S1024x8_S1024x16_S1024x24_d1 (ix2 r k) rfl rfl (ix2 r (⟨k.val - 8, by omega⟩ : Fin 16))
      (fun b hb => by match b with | ⟨0, _⟩ => rfl | ⟨1, _⟩ => exact absurd rfl hb)
      (by show k.val - 8 + 8 = k.val; omega)

/-! ## The body's stored value, stage by stage -/

section Body
variable (v0 : Vec Ideal S1024x136 .f32) (v6 : Vec Ideal S8x32 .f32) (v9 : Vec Ideal S1x32 .f32)
  (v17 : Vec Ideal S32x16 .f32) (v20 : Vec Ideal S1x16 .f32) (v31 : Vec Ideal S24x32 .f32)
  (v34 : Vec Ideal S1x32 .f32) (v42 : Vec Ideal S32x2 .f32) (v45 : Vec Ideal S1x2 .f32)

/-- The neighbours' first layer, [16384, 32]. -/
def layer1 : FVec Ideal S16384x32 .f32 :=
  dense dot_S16384x8_S8x32_S16384x32_1_0_0_1_n_n (nbrs v0) v6 v9 shapeCasts_S8x32_S8x32 shapeCasts_S1x32_S1x32
    broadcasts_S1x32_S16384x32 bitsLt_bf16_f32
/-- Their second layer, [16384, 16]. -/
def layer2 : FVec Ideal S16384x16 .f32 :=
  dense dot_S16384x32_S32x16_S16384x16_1_0_0_1_n_n (layer1 v0 v6 v9) v17 v20 shapeCasts_S32x16_S32x16
    shapeCasts_S1x16_S1x16 broadcasts_S1x16_S16384x16 bitsLt_bf16_f32
/-- The third layer, [1024, 32], of the 24 joined features. -/
def layer3 : FVec Ideal S1024x32 .f32 :=
  dense dot_S1024x24_S24x32_S1024x32_1_0_0_1_n_n (feats v0 (pool (layer2 v0 v6 v9 v17 v20))) v31 v34
    shapeCasts_S24x32_S24x32 shapeCasts_S1x32_S1x32 broadcasts_S1x32_S1024x32 bitsLt_bf16_f32
/-- The result block, [1024, 2]. -/
def layer4 : FVec Ideal S1024x2 .f32 :=
  dense dot_S1024x32_S32x2_S1024x2_1_0_0_1_n_n (layer3 v0 v6 v9 v17 v20 v31 v34) v42 v45 shapeCasts_S32x2_S32x2
    shapeCasts_S1x2_S1x2 broadcasts_S1x2_S1024x2 bitsLt_bf16_f32

/-- The value the body stores is that composition: the printed operations, in their order. -/
theorem stored_eq :
    k0_pay1 (F := Ideal) (k0_pay2 v0 v6 v9 v17 v20 v31) (k0_pay3 v34) v42 v45 = layer4 v0 v6 v9 v17 v20 v31 v34 v42 v45 :=
  rfl

/-- The weights and biases as the specification takes them: the matrices read transposed, the biases from their row. -/
abbrev matT {p q : Nat} (w : (⟨2, ![q, p]⟩ : Shape).Idx → EReal) : Fin p → Fin q → EReal := fun a b => w (ix2 b a)
abbrev rowVec {p : Nat} (v : (⟨2, ![1, p]⟩ : Shape).Idx → EReal) : Fin p → EReal := fun a => v (ix2 (0 : Fin 1) a)
/-- Row `r` of the block. -/
abbrev rowOf (r : Fin 1024) : Fin 136 → EReal := fun k => v0 (ix2 r k)

theorem hidden_eq (r : Fin 1024) (j : Fin 16) (a : Fin 32) :
    layer1 v0 v6 v9 (ix2 (nbrRow r j) a) = PoolNet.hidden (matT v6) (rowVec v9) (rowOf v0 r) j a := by
  unfold layer1 PoolNet.hidden
  refine (dense_apply _ rfl rfl rfl rfl rfl rfl rfl rfl _ _ _ _ _ _ _ (nbrRow r j) a).trans ?_
  exact congrArg PoolNet.relu (congrArg₂ (· + ·)
    (Finset.sum_congr rfl fun d _ => congrArg₂ (· * ·) (nbrs_apply v0 r j d) rfl) rfl)

theorem embed_eq (r : Fin 1024) (j : Fin 16) (b : Fin 16) :
    layer2 v0 v6 v9 v17 v20 (ix2 (nbrRow r j) b)
      = PoolNet.embed (matT v6) (rowVec v9) (matT v17) (rowVec v20) (rowOf v0 r) j b := by
  unfold layer2 PoolNet.embed
  refine (dense_apply _ rfl rfl rfl rfl rfl rfl rfl rfl _ _ _ _ _ _ _ (nbrRow r j) b).trans ?_
  exact congrArg PoolNet.relu (congrArg₂ (· + ·)
    (Finset.sum_congr rfl fun a _ => congrArg₂ (· * ·) (hidden_eq v0 v6 v9 r j a) rfl) rfl)

theorem pooled_eq (r : Fin 1024) (b : Fin 16) :
    pool (layer2 v0 v6 v9 v17 v20) (ix2 r b)
      = PoolNet.pooled (matT v6) (rowVec v9) (matT v17) (rowVec v20) (rowOf v0 r) b := by
  rw [pool_apply]
  unfold PoolNet.pooled
  exact Finset.sum_congr rfl fun j _ => embed_eq v0 v6 v9 v17 v20 r j b

theorem feature_eq (r : Fin 1024) (k : Fin 24) :
    feats v0 (pool (layer2 v0 v6 v9 v17 v20)) (ix2 r k)
      = PoolNet.feature (matT v6) (rowVec v9) (matT v17) (rowVec v20) (rowOf v0 r) k := by
  rw [feats_apply]
  unfold PoolNet.feature
  by_cases h : k.val < 8
  · rw [dif_pos h, dif_pos h]
  · rw [dif_neg h, dif_neg h]
    exact pooled_eq v0 v6 v9 v17 v20 r _

theorem head_eq (r : Fin 1024) (a : Fin 32) :
    layer3 v0 v6 v9 v17 v20 v31 v34 (ix2 r a)
      = PoolNet.head (matT v6) (rowVec v9) (matT v17) (rowVec v20) (matT v31) (rowVec v34) (rowOf v0 r) a := by
  unfold layer3 PoolNet.head
  refine (dense_apply _ rfl rfl rfl rfl rfl rfl rfl rfl _ _ _ _ _ _ _ r a).trans ?_
  exact congrArg PoolNet.relu (congrArg₂ (· + ·)
    (Finset.sum_congr rfl fun k _ => congrArg₂ (· * ·) (feature_eq v0 v6 v9 v17 v20 r k) rfl) rfl)

/-- THE BODY'S STORED VALUE at (r, o) is `PoolNet.out` of the block's row `r`, unit `o`. -/
theorem out_eq (r : Fin 1024) (o : Fin 2) :
    k0_pay1 (F := Ideal) (k0_pay2 v0 v6 v9 v17 v20 v31) (k0_pay3 v34) v42 v45 (ix2 r o)
      = PoolNet.out (matT v6) (rowVec v9) (matT v17) (rowVec v20) (matT v31) (rowVec v34) (matT v42) (rowVec v45)
          (rowOf v0 r) o := by
  rw [stored_eq]
  unfold layer4 PoolNet.out
  refine (dense_apply _ rfl rfl rfl rfl rfl rfl rfl rfl _ _ _ _ _ _ _ r o).trans ?_
  exact congrArg PoolNet.relu (congrArg₂ (· + ·)
    (Finset.sum_congr rfl fun a _ => congrArg₂ (· * ·) (head_eq v0 v6 v9 v17 v20 v31 v34 r a) rfl) rfl)

/-- The same at any index `y` of the block, by its two coordinates. -/
theorem out_at (y : S1024x2.Idx) :
    k0_pay1 (F := Ideal) (k0_pay2 v0 v6 v9 v17 v20 v31) (k0_pay3 v34) v42 v45 y
      = PoolNet.out (matT v6) (rowVec v9) (matT v17) (rowVec v20) (matT v31) (rowVec v34) (matT v42) (rowVec v45)
          (rowOf v0 (⟨(y 0).val, idx2_lt0 y⟩ : Fin 1024)) (⟨(y 1).val, idx2_lt1 y⟩ : Fin 2) := by
  obtain ⟨r, o, rfl⟩ : ∃ (r : Fin 1024) (o : Fin 2), y = ix2 r o := ⟨y 0, y 1, eq_ix2 y⟩
  exact out_eq v0 v6 v9 v17 v20 v31 v34 v42 v45 r o

end Body

end Cert.BlockPoolNet

end
-- ==== Proof.KernelResult.lean ====
/-
  The kernel's result array is `PoolNet.result` of its nine arguments.

  The grid has 256 points; point `t` works on rows `1024·t … 1024·t + 1023`: its input block is those rows of the input,
  its output block those rows of the result, and every weight and bias window is the whole of its small array at every
  point. The small arrays are written before the kernel starts, each from one argument: a weight matrix transposed, a
  bias vector laid out as one row. So the body's loads at point `t` are: row `r` of the block = row `1024·t + r` of the
  input; a weight block's entry (k, a) = the weight argument's entry (a, k); a bias block's entry (0, a) = the bias
  argument's entry `a`. With these, what the body stores at (r, o) — `PoolNet.out` of the block's row `r` (the body
  module) — is `PoolNet.result` at (1024·t + r, o), which is where the block's (r, o) lands in the result. The 256
  blocks cover the result array (row `g` is in block `g / 1024`), so the array ends as `PoolNet.result` everywhere.
-/
import proofs.«177243_j38817914422128_1_alg».proof.Proof.Gen.KernelIdeal.Value
import proofs.«177243_j38817914422128_1_alg».proof.Proof.BlockPoolNet
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelResult

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The result array as the kernel's memory gives it: `PoolNet.result` of the nine argument arrays as launched. -/
abbrev G (c : Dev nD) : S262144x2.Idx → EReal :=
  PoolNet.result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-! ## Where each window's block sits, decided over the 256 points -/

/-- The input's and the result's blocks move together down the rows, from column 0; every other window stays at its
    array's origin. -/
theorem idx_facts : ∀ t : Fin cfg0.N,
    win0_0.index t (0 : Fin 2) = win0_9.index t (0 : Fin 2) ∧ win0_0.index t (1 : Fin 2) = 0
    ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The result's block index down the rows is the point's number. -/
theorem idx_row (t : Fin cfg0.N) : win0_9.index t (0 : Fin 2) = t.val := idx_pt9 t

theorem N_eq : cfg0.N = 256 := N_0

/-- Row `1024·t + r` is a row of the [262144, ·] arrays: there are 256 points of 1024 rows each. -/
theorem row_lt (t : Fin cfg0.N) (r : Nat) (hr : r < 1024) : t.val * 1024 + r < 262144 := by
  have hN := N_eq; have ht := t.isLt; omega

/-- Entry (r, k) of the input's block at point `t` is entry (1024·t + r, k) of the input. -/
theorem emb_in (t : Fin cfg0.N) (r : Fin 1024) (k : Fin 136) :
    ((cfg0.win 0).blk t).view.emb (ix2 r k)
      = ix2 (⟨t.val * 1024 + r.val, row_lt t r.val r.isLt⟩ : Fin 262144) k := by
  obtain ⟨e0, e1, -⟩ := idx_facts t
  have e9 := idx_row t
  funext ax; apply Fin.ext
  match ax with
  | ⟨0, _⟩ => show win0_0.index t (0 : Fin 2) * 1024 + 1 * r.val = t.val * 1024 + r.val; omega
  | ⟨1, _⟩ => show win0_0.index t (1 : Fin 2) * 136 + 1 * k.val = k.val; omega

/-- Entry `y` of the result's block at point `t` lands at (1024·t + y₀, y₁) of the result. -/
theorem emb_out (t : Fin cfg0.N) (y : S1024x2.Idx) :
    ((cfg0.win 9).blk t).view.emb y
      = ix2 (⟨t.val * 1024 + (y 0).val, row_lt t (y 0).val (idx2_lt0 y)⟩ : Fin 262144)
          (⟨(y 1).val, idx2_lt1 y⟩ : Fin 2) := by
  obtain ⟨-, -, e1, -⟩ := idx_facts t
  have e9 := idx_row t
  funext ax; apply Fin.ext
  match ax with
  | ⟨0, _⟩ => show win0_9.index t (0 : Fin 2) * 1024 + 1 * (y 0).val = t.val * 1024 + (y 0).val; omega
  | ⟨1, _⟩ => show win0_9.index t (1 : Fin 2) * 2 + 1 * (y 1).val = (y 1).val; omega

/-! ## The small arrays as the kernel finds them, and their blocks -/

theorem V_w1 (c : Dev nD) : (V m c main_v0 : S8x32.Idx → EReal)
    = transpose S8x32 [1, 0] (m ((c : Thread nD τ).loc main_arg1)) transposes_S32x8_S8x32_1_0 := by
  dsimp only [V, hostOps0]; after_results <;> rfl
theorem V_b1 (c : Dev nD) : (V m c main_v1 : S1x32.Idx → EReal)
    = shapeCast S1x32 (m ((c : Thread nD τ).loc main_arg2)) shapeCasts_S32_S1x32 := by
  dsimp only [V, hostOps0]; after_results <;> rfl
theorem V_w2 (c : Dev nD) : (V m c main_v2 : S32x16.Idx → EReal)
    = transpose S32x16 [1, 0] (m ((c : Thread nD τ).loc main_arg3)) transposes_S16x32_S32x16_1_0 := by
  dsimp only [V, hostOps0]; after_results <;> rfl
theorem V_b2 (c : Dev nD) : (V m c main_v3 : S1x16.Idx → EReal)
    = shapeCast S1x16 (m ((c : Thread nD τ).loc main_arg4)) shapeCasts_S16_S1x16 := by
  dsimp only [V, hostOps0]; after_results <;> rfl
theorem V_r1 (c : Dev nD) : (V m c main_v4 : S24x32.Idx → EReal)
    = transpose S24x32 [1, 0] (m ((c : Thread nD τ).loc main_arg5)) transposes_S32x24_S24x32_1_0 := by
  dsimp only [V, hostOps0]; after_results <;> rfl
theorem V_c1 (c : Dev nD) : (V m c main_v5 : S1x32.Idx → EReal)
    = shapeCast S1x32 (m ((c : Thread nD τ).loc main_arg6)) shapeCasts_S32_S1x32 := by
  dsimp only [V, hostOps0]; after_results <;> rfl
theorem V_r2 (c : Dev nD) : (V m c main_v6 : S32x2.Idx → EReal)
    = transpose S32x2 [1, 0] (m ((c : Thread nD τ).loc main_arg7)) transposes_S2x32_S32x2_1_0 := by
  dsimp only [V, hostOps0]; after_results <;> rfl
theorem V_c2 (c : Dev nD) : (V m c main_v7 : S1x2.Idx → EReal)
    = shapeCast S1x2 (m ((c : Thread nD τ).loc main_arg8)) shapeCasts_S2_S1x2 := by
  dsimp only [V, hostOps0]; after_results <;> rfl

/-- The input block's row `r` is row `1024·t + r` of the input. -/
theorem in_apply (c : Dev nD) (t : Fin cfg0.N) (r : Fin 1024) (k : Fin 136) :
    (iblk m c 0 t : S1024x136.Idx → EReal) (ix2 r k)
      = (m ((c : Thread nD τ).loc main_arg0) : S262144x136.Idx → EReal)
          (ix2 (⟨t.val * 1024 + r.val, row_lt t r.val r.isLt⟩ : Fin 262144) k) := by
  show V m c main_arg0 (((cfg0.win 0).blk t).view.emb (ix2 r k)) = _
  rw [emb_in t r k, V_main_arg0]

theorem w1_apply (c : Dev nD) (t : Fin cfg0.N) (k : Fin 8) (a : Fin 32) :
    (iblk m c 1 t : S8x32.Idx → EReal) (ix2 k a)
      = (m ((c : Thread nD τ).loc main_arg1) : S32x8.Idx → EReal) (ix2 a k) := by
  obtain ⟨-, -, -, e0, e1, -⟩ := idx_facts t
  have he : ((cfg0.win 1).blk t).view.emb (ix2 k a) = ix2 k a := by
    funext ax; apply Fin.ext
    match ax with
    | ⟨0, _⟩ => show win0_1.index t (0 : Fin 2) * 8 + 1 * k.val = k.val; omega
    | ⟨1, _⟩ => show win0_1.index t (1 : Fin 2) * 32 + 1 * a.val = a.val; omega
  show V m c main_v0 (((cfg0.win 1).blk t).view.emb (ix2 k a)) = _
  rw [he, V_w1]
  exact transpose_ix2_apply _ transposes_S32x8_S8x32_1_0 k a

theorem b1_apply (c : Dev nD) (t : Fin cfg0.N) (a : Fin 32) :
    (iblk m c 2 t : S1x32.Idx → EReal) (ix2 (0 : Fin 1) a)
      = (m ((c : Thread nD τ).loc main_arg2) : S32.Idx → EReal) (ix1 a) := by
  obtain ⟨-, -, -, -, -, e0, e1, -⟩ := idx_facts t
  have he : ((cfg0.win 2).blk t).view.emb (ix2 (0 : Fin 1) a) = ix2 (0 : Fin 1) a := by
    funext ax; apply Fin.ext
    match ax with
    | ⟨0, _⟩ => show win0_2.index t (0 : Fin 2) * 1 + 1 * 0 = 0; omega
    | ⟨1, _⟩ => show win0_2.index t (1 : Fin 2) * 32 + 1 * a.val = a.val; omega
  show V m c main_v1 (((cfg0.win 2).blk t).view.emb (ix2 (0 : Fin 1) a)) = _
  rw [he, V_b1]
  exact shapeCast_a_1a_apply _ shapeCasts_S32_S1x32 (0 : Fin 1) a

theorem w2_apply (c : Dev nD) (t : Fin cfg0.N) (k : Fin 32) (b : Fin 16) :
    (iblk m c 3 t : S32x16.Idx → EReal) (ix2 k b)
      = (m ((c : Thread nD τ).loc main_arg3) : S16x32.Idx → EReal) (ix2 b k) := by
  obtain ⟨-, -, -, -, -, -, -, e0, e1, -⟩ := idx_facts t
  have he : ((cfg0.win 3).blk t).view.emb (ix2 k b) = ix2 k b := by
    funext ax; apply Fin.ext
    match ax with
    | ⟨0, _⟩ => show win0_3.index t (0 : Fin 2) * 32 + 1 * k.val = k.val; omega
    | ⟨1, _⟩ => show win0_3.index t (1 : Fin 2) * 16 + 1 * b.val = b.val; omega
  show V m c main_v2 (((cfg0.win 3).blk t).view.emb (ix2 k b)) = _
  rw [he, V_w2]
  exact transpose_ix2_apply _ transposes_S16x32_S32x16_1_0 k b

theorem b2_apply (c : Dev nD) (t : Fin cfg0.N) (b : Fin 16) :
    (iblk m c 4 t : S1x16.Idx → EReal) (ix2 (0 : Fin 1) b)
      = (m ((c : Thread nD τ).loc main_arg4) : S16.Idx → EReal) (ix1 b) := by
  obtain ⟨-, -, -, -, -, -, -, -, -, e0, e1, -⟩ := idx_facts t
  have he : ((cfg0.win 4).blk t).view.emb (ix2 (0 : Fin 1) b) = ix2 (0 : Fin 1) b := by
    funext ax; apply Fin.ext
    match ax with
    | ⟨0, _⟩ => show win0_4.index t (0 : Fin 2) * 1 + 1 * 0 = 0; omega
    | ⟨1, _⟩ => show win0_4.index t (1 : Fin 2) * 16 + 1 * b.val = b.val; omega
  show V m c main_v3 (((cfg0.win 4).blk t).view.emb (ix2 (0 : Fin 1) b)) = _
  rw [he, V_b2]
  exact shapeCast_a_1a_apply _ shapeCasts_S16_S1x16 (0 : Fin 1) b

theorem r1_apply (c : Dev nD) (t : Fin cfg0.N) (k : Fin 24) (a : Fin 32) :
    (iblk m c 5 t : S24x32.Idx → EReal) (ix2 k a)
      = (m ((c : Thread nD τ).loc main_arg5) : S32x24.Idx → EReal) (ix2 a k) := by
  obtain ⟨-, -, -, -, -, -, -, -, -, -, -, e0, e1, -⟩ := idx_facts t
  have he : ((cfg0.win 5).blk t).view.emb (ix2 k a) = ix2 k a := by
    funext ax; apply Fin.ext
    match ax with
    | ⟨0, _⟩ => show win0_5.index t (0 : Fin 2) * 24 + 1 * k.val = k.val; omega
    | ⟨1, _⟩ => show win0_5.index t (1 : Fin 2) * 32 + 1 * a.val = a.val; omega
  show V m c main_v4 (((cfg0.win 5).blk t).view.emb (ix2 k a)) = _
  rw [he, V_r1]
  exact transpose_ix2_apply _ transposes_S32x24_S24x32_1_0 k a

theorem c1_apply (c : Dev nD) (t : Fin cfg0.N) (a : Fin 32) :
    (iblk m c 6 t : S1x32.Idx → EReal) (ix2 (0 : Fin 1) a)
      = (m ((c : Thread nD τ).loc main_arg6) : S32.Idx → EReal) (ix1 a) := by
  obtain ⟨-, -, -, -, -, -, -, -, -, -, -, -, -, e0, e1, -⟩ := idx_facts t
  have he : ((cfg0.win 6).blk t).view.emb (ix2 (0 : Fin 1) a) = ix2 (0 : Fin 1) a := by
    funext ax; apply Fin.ext
    match ax with
    | ⟨0, _⟩ => show win0_6.index t (0 : Fin 2) * 1 + 1 * 0 = 0; omega
    | ⟨1, _⟩ => show win0_6.index t (1 : Fin 2) * 32 + 1 * a.val = a.val; omega
  show V m c main_v5 (((cfg0.win 6).blk t).view.emb (ix2 (0 : Fin 1) a)) = _
  rw [he, V_c1]
  exact shapeCast_a_1a_apply _ shapeCasts_S32_S1x32 (0 : Fin 1) a

theorem r2_apply (c : Dev nD) (t : Fin cfg0.N) (k : Fin 32) (o : Fin 2) :
    (iblk m c 7 t : S32x2.Idx → EReal) (ix2 k o)
      = (m ((c : Thread nD τ).loc main_arg7) : S2x32.Idx → EReal) (ix2 o k) := by
  obtain ⟨-, -, -, -, -, -, -, -, -, -, -, -, -, -, -, e0, e1, -⟩ := idx_facts t
  have he : ((cfg0.win 7).blk t).view.emb (ix2 k o) = ix2 k o := by
    funext ax; apply Fin.ext
    match ax with
    | ⟨0, _⟩ => show win0_7.index t (0 : Fin 2) * 32 + 1 * k.val = k.val; omega
    | ⟨1, _⟩ => show win0_7.index t (1 : Fin 2) * 2 + 1 * o.val = o.val; omega
  show V m c main_v6 (((cfg0.win 7).blk t).view.emb (ix2 k o)) = _
  rw [he, V_r2]
  exact transpose_ix2_apply _ transposes_S2x32_S32x2_1_0 k o

theorem c2_apply (c : Dev nD) (t : Fin cfg0.N) (o : Fin 2) :
    (iblk m c 8 t : S1x2.Idx → EReal) (ix2 (0 : Fin 1) o)
      = (m ((c : Thread nD τ).loc main_arg8) : S2.Idx → EReal) (ix1 o) := by
  obtain ⟨-, -, -, -, -, -, -, -, -, -, -, -, -, -, -, -, -, e0, e1⟩ := idx_facts t
  have he : ((cfg0.win 8).blk t).view.emb (ix2 (0 : Fin 1) o) = ix2 (0 : Fin 1) o := by
    funext ax; apply Fin.ext
    match ax with
    | ⟨0, _⟩ => show win0_8.index t (0 : Fin 2) * 1 + 1 * 0 = 0; omega
    | ⟨1, _⟩ => show win0_8.index t (1 : Fin 2) * 2 + 1 * o.val = o.val; omega
  show V m c main_v7 (((cfg0.win 8).blk t).view.emb (ix2 (0 : Fin 1) o)) = _
  rw [he, V_c2]
  exact shapeCast_a_1a_apply _ shapeCasts_S2_S1x2 (0 : Fin 1) o

/-! ## What a point writes back, the cover, the array, the run -/

/-- WHAT POINT `t` WRITES BACK is block `t` of `G`. -/
theorem flushed_eq (c : Dev nD) (t : Fin cfg0.N) :
    (dats m 0 c).flushed 9 t = ((cfg0.win 9).blk t).view.read (Elt Ideal) (G m c) := by
  rw [flushed9]
  unfold out0_9
  rw [View.canon_unit_zero hz]
  simp only [View.ld_unit_zero (S := S1024x136) hz, View.ld_unit_zero (S := S8x32) hz, View.ld_unit_zero (S := S1x32) hz,
    View.ld_unit_zero (S := S32x16) hz, View.ld_unit_zero (S := S1x16) hz, View.ld_unit_zero (S := S24x32) hz,
    View.ld_unit_zero (S := S32x2) hz, View.ld_unit_zero (S := S1x2) hz]
  funext y
  show k0_pay1 (F := Ideal)
      (k0_pay2 (iblk m c 0 t) (iblk m c 1 t) (iblk m c 2 t) (iblk m c 3 t) (iblk m c 4 t) (iblk m c 5 t))
      (k0_pay3 (iblk m c 6 t)) (iblk m c 7 t) (iblk m c 8 t) y
    = G m c (((cfg0.win 9).blk t).view.emb y)
  rw [emb_out t y]
  refine (BlockPoolNet.out_at (iblk m c 0 t) (iblk m c 1 t) (iblk m c 2 t) (iblk m c 3 t) (iblk m c 4 t) (iblk m c 5 t)
    (iblk m c 6 t) (iblk m c 7 t) (iblk m c 8 t) y).trans ?_
  have h1 : BlockPoolNet.matT (iblk m c 1 t : S8x32.Idx → EReal)
      = fun a d => (m ((c : Thread nD τ).loc main_arg1) : S32x8.Idx → EReal) (ix2 a d) :=
    funext fun a => funext fun d => w1_apply m c t d a
  have h2 : BlockPoolNet.rowVec (iblk m c 2 t : S1x32.Idx → EReal)
      = fun a => (m ((c : Thread nD τ).loc main_arg2) : S32.Idx → EReal) (ix1 a) := funext fun a => b1_apply m c t a
  have h3 : BlockPoolNet.matT (iblk m c 3 t : S32x16.Idx → EReal)
      = fun b a => (m ((c : Thread nD τ).loc main_arg3) : S16x32.Idx → EReal) (ix2 b a) :=
    funext fun b => funext fun a => w2_apply m c t a b
  have h4 : BlockPoolNet.rowVec (iblk m c 4 t : S1x16.Idx → EReal)
      = fun b => (m ((c : Thread nD τ).loc main_arg4) : S16.Idx → EReal) (ix1 b) := funext fun b => b2_apply m c t b
  have h5 : BlockPoolNet.matT (iblk m c 5 t : S24x32.Idx → EReal)
      = fun a k => (m ((c : Thread nD τ).loc main_arg5) : S32x24.Idx → EReal) (ix2 a k) :=
    funext fun a => funext fun k => r1_apply m c t k a
  have h6 : BlockPoolNet.rowVec (iblk m c 6 t : S1x32.Idx → EReal)
      = fun a => (m ((c : Thread nD τ).loc main_arg6) : S32.Idx → EReal) (ix1 a) := funext fun a => c1_apply m c t a
  have h7 : BlockPoolNet.matT (iblk m c 7 t : S32x2.Idx → EReal)
      = fun o a => (m ((c : Thread nD τ).loc main_arg7) : S2x32.Idx → EReal) (ix2 o a) :=
    funext fun o => funext fun a => r2_apply m c t a o
  have h8 : BlockPoolNet.rowVec (iblk m c 8 t : S1x2.Idx → EReal)
      = fun o => (m ((c : Thread nD τ).loc main_arg8) : S2.Idx → EReal) (ix1 o) := funext fun o => c2_apply m c t o
  have h0 : BlockPoolNet.rowOf (iblk m c 0 t : S1024x136.Idx → EReal) (⟨(y 0).val, idx2_lt0 y⟩ : Fin 1024)
      = fun k => (m ((c : Thread nD τ).loc main_arg0) : S262144x136.Idx → EReal)
          (ix2 (⟨t.val * 1024 + (y 0).val, row_lt t (y 0).val (idx2_lt0 y)⟩ : Fin 262144) k) :=
    funext fun k => in_apply m c t ⟨(y 0).val, idx2_lt0 y⟩ k
  rw [h0, h1, h2, h3, h4, h5, h6, h7, h8]
  rfl

/-- An index of the result is in point `t`'s block iff its row is among the block's 1024 and its column among the 2. -/
theorem mem_blk (t : Fin cfg0.N) (i : S262144x2.Idx) :
    i ∈ ((cfg0.win 9).blk t).view.set ↔ ∀ a : Fin 2, win0_9.index t a * S1024x2.size a ≤ (i a).val
      ∧ (i a).val < win0_9.index t a * S1024x2.size a + S1024x2.size a := by
  show i ∈ ((View.whole main_v8).slice (win0_9.rect t)).set ↔ _
  rw [View.set_slice_whole, Rect.mem_set_unit]
  exact Iff.rfl

/-- Every index of the result is in some point's block: row `g` is in block `g / 1024`. -/
theorem cover (i : S262144x2.Idx) :
    ∃ t : Fin cfg0.N, (cfg0.win 9).flush t = true ∧ i ∈ ((cfg0.win 9).blk t).view.set := by
  have hi0 : (i 0).val < 262144 := idx2_lt0 i
  have hi1 : (i 1).val < 2 := idx2_lt1 i
  let t : Fin cfg0.N := ⟨(i 0).val / 1024, by rw [N_eq]; omega⟩
  obtain ⟨-, -, e1, -⟩ := idx_facts t
  have e9 : win0_9.index t (0 : Fin 2) = (i 0).val / 1024 := idx_row t
  refine ⟨t, flush0_9 t, ?_⟩
  rw [mem_blk]
  intro a
  match a with
  | ⟨0, _⟩ =>
    show win0_9.index t (0 : Fin 2) * 1024 ≤ (i 0).val ∧ (i 0).val < win0_9.index t (0 : Fin 2) * 1024 + 1024
    omega
  | ⟨1, _⟩ =>
    show win0_9.index t (1 : Fin 2) * 2 ≤ (i 1).val ∧ (i 1).val < win0_9.index t (1 : Fin 2) * 2 + 2
    omega

/-- THE RESULT ARRAY after the run is `G`. -/
theorem final (c : Dev nD) : (dats m 0 c).arrAt 9 cfg0.N = G m c :=
  (dats m 0 c).arrAt_eq_of_cover 9 (G m c) (fun t _ => flushed_eq m c t) cover

/-- THE KERNEL'S RUN, read: every weakly fair execution ends with the result array at `PoolNet.result` of the nine
    arguments and the arguments unchanged. -/
theorem run : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelResult

end
-- ==== Proof.lean ====
/-
  The kernel and its reference compute one function, and the kernel's text read over the extended reals is its own
  idealization.

  The function (module PoolNet): for each of the 262144 samples, a two-layer network applied to each of its 16
  neighbours' 8 features, the 16 results added, the sample's own 8 features joined in front, and two more layers; every
  layer a matrix product plus a bias followed by the maximum with zero. The result is a [262144, 2] array,
  `PoolNet.result` of the nine arguments.

  The reference evaluates it on the whole input at once: read at an index, stage by stage, it is `PoolNet.result`
  (module RefPoolNet, over the reference's operations read one at a time). The kernel evaluates it 1024 rows at a time
  on a grid of 256 points, on weights transposed and biases laid out as rows beforehand: one block's stored value is
  `PoolNet.out` of each of its rows (module BlockPoolNet), each block is the matching rows of `PoolNet.result`, and the
  blocks cover the result (module KernelResult). Both sides take the sums, products and maxima in the same order, so
  they meet term for term: no arithmetic law, and no use of the inputs' finiteness, is needed.

  The three programs run without fault and leave their arguments as they were: for the two kernel programs this is
  the generated frame; for the reference it is its generated run with the result dropped. The idealizing pass
  rewrote nothing, so there is nothing to preserve beyond that.
-/
import proofs.«177243_j38817914422128_1_alg».proof.Defs
import proofs.«177243_j38817914422128_1_alg».proof.Proof.Gen.Kernel
import proofs.«177243_j38817914422128_1_alg».proof.Proof.Gen.Kernel.Skeleton
import proofs.«177243_j38817914422128_1_alg».proof.Proof.Gen.Kernel.Launch
import proofs.«177243_j38817914422128_1_alg».proof.Proof.Gen.Kernel.Points
import proofs.«177243_j38817914422128_1_alg».proof.Proof.Gen.Kernel.Frame
import proofs.«177243_j38817914422128_1_alg».proof.Proof.Gen.KernelIdeal
import proofs.«177243_j38817914422128_1_alg».proof.Proof.Gen.KernelIdeal.Skeleton
import proofs.«177243_j38817914422128_1_alg».proof.Proof.Gen.KernelIdeal.Launch
import proofs.«177243_j38817914422128_1_alg».proof.Proof.Gen.KernelIdeal.Points
import proofs.«177243_j38817914422128_1_alg».proof.Proof.Gen.KernelIdeal.Frame
import proofs.«177243_j38817914422128_1_alg».proof.Proof.Gen.ReferenceIdeal
import proofs.«177243_j38817914422128_1_alg».proof.Proof.Gen.Pre_finite_inputs
import proofs.«177243_j38817914422128_1_alg».proof.Proof.Gen.KernelIdeal.Value
import proofs.«177243_j38817914422128_1_alg».proof.Proof.Gen.ReferenceIdeal.Run
import proofs.«177243_j38817914422128_1_alg».proof.Proof.Gen.ReferenceIdeal.Read
import proofs.«177243_j38817914422128_1_alg».proof.Proof.RefPoolNet
import proofs.«177243_j38817914422128_1_alg».proof.Proof.KernelResult
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- And the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the nine arguments, the kernel's result array ends at `PoolNet.result` of its
    arguments (KernelResult) and the reference's at `PoolNet.result` of its own (RefPoolNet), which are the same
    arrays. -/
theorem algebraic : Cert.algebraic_KernelIdeal_ReferenceIdeal := by
  intro m ρ m' ρ' _ hagree
  refine ⟨fun c => Cert.KernelResult.G m c, Cert.KernelResult.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v31_eq, Cert.RefPoolNet.result_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
